-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : FVec F S1024 .f32) (main_arg2 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S1024 : Shape := ⟨1, ![1024]⟩
abbrev S_ : Shape := ⟨0, ![]⟩
abbrev S1 : Shape := ⟨1, ![1]⟩
abbrev S32768x1024 : Shape := ⟨2, ![32768, 1024]⟩
abbrev S1x1024 : Shape := ⟨2, ![1, 1024]⟩
abbrev S2048x1024 : Shape := ⟨2, ![2048, 1024]⟩

abbrev nBuf : Space → Nat
  | .hbm => 24
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S_S1024 : S_.BroadcastsInDim S1024 (![] : Fin 0 → Fin S1024.rank)
  shapeCasts_S8x4096x1024_S32768x1024 : S8x4096x1024.ShapeCasts S32768x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

abbrev win0_0 : Pipeline.Window sig grid0 :=
  Pipeline.Window.ofSpec (Memref.whole main_v13) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S_ : Shape := ⟨0, ![]⟩
abbrev S1 : Shape := ⟨1, ![1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)

variable [Facts₀]

class Facts : Prop extends Facts₀ where

variable [Facts]
-- ==== Proof.ChannelScale.lean ====
/-
  Scaling every entry of an array by a weight that depends on its channel only.

  The array is `x : [8, 4096, 1024]`, the weights `μ : [1024]`, and the result holds `x[b, s, d] · μ[d]`.  The same
  product can be arranged differently: flatten the first two axes into 32768 rows of 1024 entries, lay the weights out
  as one row `[1, 1024]`, multiply every row by that row entry by entry, and fold the rows back into `[8, 4096, 1024]`.
  Flattening and folding back move no entry relative to its channel: entry `(b, s, d)` sits in row `b · 4096 + s` at
  column `d`, so both arrangements read the same two numbers and multiply them in the same order.  No law of the
  extended reals is used, so infinite entries are handled exactly as finite ones.
-/
import Idealize.ShloMosaic.PureOps.Ideal
import Idealize.ShloMosaic.Lib.ValueIdx
import Idealize.ShloMosaic.Lib.ValueLayout
import Idealize.ShloMosaic.Lib.Pipeline.Value

noncomputable section

namespace Cert.ChannelScale

open Idealize.ShloMosaic Idealize.ShloMosaic.ValueIdx

/-- The array's shape, its flattening into rows, the weights' shape, and the weights as one row. -/
abbrev Sx : Shape := ⟨3, ![8, 4096, 1024]⟩
abbrev Srows : Shape := ⟨2, ![32768, 1024]⟩
abbrev Sch : Shape := ⟨1, ![1024]⟩
abbrev Srow : Shape := ⟨2, ![1, 1024]⟩

/-- Every entry times the weight of its channel (its last coordinate). -/
def byChannel (x : Sx.Idx → EReal) (μ : Sch.Idx → EReal) : Sx.Idx → EReal :=
  fun i => x i * μ (ix1 (⟨(i 2).val, (i 2).isLt⟩ : Fin 1024))

theorem byChannel_apply (x : Sx.Idx → EReal) (μ : Sch.Idx → EReal) (b : Fin 8) (s : Fin 4096) (d : Fin 1024) :
    byChannel x μ (ix3 b s d) = x (ix3 b s d) * μ (ix1 d) := rfl

/-- Every row of a two-dimensional array times one row of weights, column by column. -/
def byColumn (a : Srows.Idx → EReal) (v : Srow.Idx → EReal) : Srows.Idx → EReal :=
  fun j => a j * v (ix2 (0 : Fin 1) (⟨(j 1).val, (j 1).isLt⟩ : Fin 1024))

theorem byColumn_apply (a : Srows.Idx → EReal) (v : Srow.Idx → EReal) (r : Fin 32768) (d : Fin 1024) :
    byColumn a v (ix2 r d) = a (ix2 r d) * v (ix2 (0 : Fin 1) d) := rfl

/-- Flattened into rows, scaled column by column by the weights laid out as a row, and folded back, the array is the
    array scaled channel by channel: entry `(b, s, d)` is entry `d` of row `b · 4096 + s`. -/
theorem fold_byColumn (x : Sx.Idx → EReal) (μ : Sch.Idx → EReal) (h1 : Sx.ShapeCasts Srows) (h2 : Sch.ShapeCasts Srow)
    (h3 : Srows.ShapeCasts Sx) :
    shapeCast Sx (byColumn (shapeCast Srows x h1) (shapeCast Srow μ h2)) h3 = byChannel x μ := by
  funext i
  obtain ⟨b, s, d, rfl⟩ : ∃ (b : Fin 8) (s : Fin 4096) (d : Fin 1024), i = ix3 b s d := ⟨i 0, i 1, i 2, eq_ix3 i⟩
  have hr : b.val * 4096 + s.val < 32768 := by have := b.isLt; have := s.isLt; omega
  refine (shapeCast_apply _ h3 (ix3 b s d) (ix2 (⟨b.val * 4096 + s.val, hr⟩ : Fin 32768) d) ?_).trans ?_
  · rw [Shape.rowMajor_val_two, Shape.rowMajor_val_three]
    rfl
  rw [byColumn_apply, byChannel_apply]
  rw [shapeCast_apply x h1 (ix2 (⟨b.val * 4096 + s.val, hr⟩ : Fin 32768) d) (ix3 b s d) (by
    rw [Shape.rowMajor_val_two, Shape.rowMajor_val_three]
    rfl)]
  rw [shapeCast_a_1a_apply μ h2 0 d]

end Cert.ChannelScale

end
-- ==== Proof.KernelBlocks.lean ====
/-
  What the scaling kernel leaves in its output array.

  The kernel sees the array flattened into 32768 rows of 1024 entries and the weights as one row of 1024.  Its grid has
  sixteen points; at point `t` it is handed rows `2048 · t … 2048 · t + 2047` of the array (a block of 2048 rows, all 1024
  columns) together with the whole weight row, multiplies every row of the block by the weight row column by column, and
  writes the product back over the same rows of the output.  So what point `t` writes is block `t` of ONE array —
  the flattened input scaled column by column — and since the sixteen blocks are consecutive and 16 · 2048 = 32768 they
  cover every row: the output array ends as that one array.
-/
import proofs.«102233_j47983374630951_2_alg».proof.Proof.Gen.KernelIdeal.Frame
import proofs.«102233_j47983374630951_2_alg».proof.Proof.ChannelScale
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.ChannelScale (byColumn byColumn_apply)

variable (m : (ℓ : Loc nD τ sig) → Buf (Elt Ideal) ℓ)

/-- Every access of the body starts at the corner of its buffer. -/
theorem origin : (![0, 0] : Fin 2 → Nat) = fun _ => 0 := funext fun a => by fin_cases a <;> rfl

/-- The body's product at row `p`, column `q` of the block: the block's entry there times the weight row's entry in
    column `q` (the weight row is repeated down the 2048 rows before the multiplication). -/
theorem product_apply (x0 : Vec Ideal S2048x1024 .f32) (x1 : Vec Ideal S1x1024 .f32) (p : Fin 2048) (q : Fin 1024) :
    k0_pay1 x0 x1 (ix2 p q) = x0 (ix2 p q) * x1 (ix2 (0 : Fin 1) q) := by
  unfold k0_pay1
  show shapeCast S2048x1024 x0 _ (ix2 p q) * broadcastTo S2048x1024 (shapeCast S1x1024 x1 _) _ (ix2 p q) = _
  rw [shapeCast_self, shapeCast_self, broadcastTo_1b_ab_apply]

/-- Where the blocks sit, decided over the sixteen points: the input block and the output block of point `t` are both
    block `t` along the rows and the only block along the columns; the weight row's block is always the whole row. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the flattened array scaled column by column by the weight row, both as
    the kernel finds them. -/
theorem flushed_eq (c : Dev nD) (t : Fin cfg0.N) :
    (dats m 0 c).flushed 2 t
      = ((cfg0.win 2).blk t).view.read (Elt Ideal) (byColumn (V m c main_v13) (V m c main_v14)) := by
  show (cfg0.win 2).cut (grid0.coords t) ((dats m 0 c).after 2 t) = _
  rw [after0_2]
  unfold out0_2
  rw [View.canon_unit_zero origin]
  simp only [View.ld_unit_zero (S := S2048x1024) origin, View.ld_unit_zero (S := S1x1024) origin]
  obtain ⟨e0, e1, e2, e3, e4, e5⟩ := index_facts t
  have ht : t.val < 16 := by have h := t.isLt; have hN : cfg0.N = 16 := N_0; omega
  funext j
  obtain ⟨p, q, rfl⟩ : ∃ (p : Fin 2048) (q : Fin 1024), j = ix2 p q := ⟨j 0, j 1, eq_ix2 j⟩
  have hrow : t.val * 2048 + p.val < 32768 := by have := p.isLt; omega
  refine (product_apply (iblk m c 0 t) (iblk m c 1 t) p q).trans ?_
  have h0 : ((cfg0.win 0).blk t).view.emb (ix2 p q) = (ix2 (⟨t.val * 2048 + p.val, hrow⟩ : Fin 32768) q : S32768x1024.Idx) := by
    funext a; apply Fin.ext
    match a with
    | ⟨0, _⟩ => show win0_0.index t (0 : Fin 2) * 2048 + 1 * p.val = t.val * 2048 + p.val; rw [e0]; omega
    | ⟨1, _⟩ => show win0_0.index t (1 : Fin 2) * 1024 + 1 * q.val = q.val; rw [e1]; omega
  have h1 : ((cfg0.win 1).blk t).view.emb (ix2 (0 : Fin 1) q) = (ix2 (0 : Fin 1) q : S1x1024.Idx) := by
    funext a; apply Fin.ext
    match a with
    | ⟨0, _⟩ => show win0_1.index t (0 : Fin 2) * 1 + 1 * 0 = 0; rw [e2]
    | ⟨1, _⟩ => show win0_1.index t (1 : Fin 2) * 1024 + 1 * q.val = q.val; rw [e3]; omega
  have h2 : ((cfg0.win 2).blk t).view.emb (ix2 p q) = (ix2 (⟨t.val * 2048 + p.val, hrow⟩ : Fin 32768) q : S32768x1024.Idx) := by
    funext a; apply Fin.ext
    match a with
    | ⟨0, _⟩ => show win0_2.index t (0 : Fin 2) * 2048 + 1 * p.val = t.val * 2048 + p.val; rw [e4]; omega
    | ⟨1, _⟩ => show win0_2.index t (1 : Fin 2) * 1024 + 1 * q.val = q.val; rw [e5]; omega
  have r0 : iblk m c 0 t (ix2 p q) = V m c main_v13 (ix2 (⟨t.val * 2048 + p.val, hrow⟩ : Fin 32768) q : S32768x1024.Idx) := by
    show V m c main_v13 (((cfg0.win 0).blk t).view.emb (ix2 p q)) = _
    rw [h0]
  have r1 : iblk m c 1 t (ix2 (0 : Fin 1) q) = V m c main_v14 (ix2 (0 : Fin 1) q : S1x1024.Idx) := by
    show V m c main_v14 (((cfg0.win 1).blk t).view.emb (ix2 (0 : Fin 1) q)) = _
    rw [h1]
  rw [r0, r1]
  show _ = byColumn (V m c main_v13) (V m c main_v14) (((cfg0.win 2).blk t).view.emb (ix2 p q))
  rw [h2, byColumn_apply]

/-- An index of the output array is in point `t`'s block iff each coordinate is within the block's range on its axis. -/
theorem mem_block (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v15).slice (win0_2.rect t)).set ↔ _
  rw [View.set_slice_whole, Rect.mem_set_unit]
  exact Iff.rfl

/-- Row `r` of the output lies in the block of point `r / 2048`, and every point writes its block back. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ : ∃ t : Fin cfg0.N, t.val = (i 0).val / 2048 :=
    ⟨⟨(i 0).val / 2048, by rw [show cfg0.N = 16 from N_0]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 1024 ≤ (i 1).val ∧ (i 1).val < win0_2.index t (1 : Fin 2) * 1024 + 1024
    rw [e5]; omega

/-- After the sixteen points the output array is the flattened array scaled column by column by the weight row. -/
theorem final (c : Dev nD) :
    (dats m 0 c).arrAt 2 cfg0.N = byColumn (V m c main_v13) (V m c main_v14) :=
  (dats m 0 c).arrAt_eq_of_cover 2 (byColumn (V m c main_v13) (V m c main_v14)) (fun t _ => flushed_eq m c t) covered

end Cert.KernelIdeal.Blocks

end
-- ==== Proof.Weights.lean ====
/-
  The weights the array is scaled by.

  Both programs compute them on the host from the two small inputs `p` (the mask parameter) and `q` (the fixed mask) by
  the same chain of operations: subtract from `p` its largest entry (never below `-∞`), exponentiate, divide by the sum
  of the exponentials — a softmax —, multiply by 1024 and then, entry by entry, by `q`.  Nothing below depends on what
  that chain computes, only on its being ONE function of `p` and `q`: it is named here once, as the reference program's
  own term for the value, and is never opened.
-/
import proofs.«102233_j47983374630951_2_alg».proof.Proof.Gen.ReferenceIdeal.Read
import proofs.«102233_j47983374630951_2_alg».proof.Proof.ChannelScale

noncomputable section

namespace Cert.ChannelScale

open Idealize.ShloMosaic

/-- `1024 · softmax p · q` as the host computes it over the extended reals: one function of `p` and `q`. -/
def weights (p q : Sch.Idx → EReal) : Sch.Idx → EReal :=
  Cert.ReferenceIdeal.Read.val_main_v12 (F := Ideal) p q

end Cert.ChannelScale

end
-- ==== Proof.KernelHost.lean ====
/-
  The host operations around the scaling kernel.

  Before the kernel runs, the host computes the weights from the two small inputs, flattens the array `[8, 4096, 1024]`
  into rows `[32768, 1024]` and lays the weights `[1024]` out as one row `[1, 1024]`; these two are what the kernel is
  handed.  After it, the host folds the kernel's output rows back into `[8, 4096, 1024]`, which is the first result; the
  second result is the weights themselves, which nothing after their computation writes.
-/
import proofs.«102233_j47983374630951_2_alg».proof.Proof.Gen.KernelIdeal.Frame
import proofs.«102233_j47983374630951_2_alg».proof.Proof.Weights
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.Pipeline (Dat)
open Cert.ChannelScale (weights)

variable (m : (ℓ : Loc nD τ sig) → Buf (Elt Ideal) ℓ)

/-- The kernel's first operand is the input array flattened into rows. -/
theorem rows_at_entry (c : Dev nD) :
    (V m c main_v13 : S32768x1024.Idx → EReal)
      = shapeCast S32768x1024 (m ((c : Thread nD τ).loc main_arg0)) Facts₀.shapeCasts_S8x4096x1024_S32768x1024 := by
  show StableHlo.after hostOps0 (fun b => m (c, b)) (Proc.devRef .tc main_v13) = _
  after_results
  rfl

/-- The host's weights are the one function of the two small inputs (the same chain of operations, term for term). -/
theorem weights_at_entry (c : Dev nD) :
    (V m c main_v12 : S1024.Idx → EReal)
      = weights (m ((c : Thread nD τ).loc main_arg1)) (m ((c : Thread nD τ).loc main_arg2)) := by
  show StableHlo.after hostOps0 (fun b => m (c, b)) (Proc.devRef .tc main_v12) = _
  after_results
  rfl

/-- The kernel's second operand is the weights laid out as one row. -/
theorem weightRow_at_entry (c : Dev nD) :
    (V m c main_v14 : S1x1024.Idx → EReal)
      = shapeCast S1x1024 (weights (m ((c : Thread nD τ).loc main_arg1)) (m ((c : Thread nD τ).loc main_arg2)))
          Facts₀.shapeCasts_S1024_S1x1024 := by
  show StableHlo.after hostOps0 (fun b => m (c, b)) (Proc.devRef .tc main_v14) = _
  after_results
  rfl

/-- The first result: the kernel's output rows, as they stand after the last grid point, folded back. -/
theorem result_after_tail (c : Dev nD) :
    Pipeline.afterTail₀ cfgs (dats m) 0 (V0 m) [hostOps1] c main_v16
      = shapeCast S8x4096x1024 ((dats m 0 c).arrAt 2 cfg0.N) Facts₀.shapeCasts_S32768x1024_S8x4096x1024 := by
  unfold Pipeline.afterTail₀
  show StableHlo.after hostOps1 _ (Proc.devRef .tc main_v16) = _
  after_results
  exact congrArg (fun a : S32768x1024.Idx → EReal => shapeCast S8x4096x1024 a Facts₀.shapeCasts_S32768x1024_S8x4096x1024)
    (Pipeline.withArrays_arr spec0 launch0.win.arr_inj c _ _ 2)

/-- The second result: the weights, which neither the kernel nor the fold after it writes. -/
theorem weights_after_tail (c : Dev nD) :
    Pipeline.afterTail₀ cfgs (dats m) 0 (V0 m) [hostOps1] c main_v12 = V m c main_v12 := by
  unfold Pipeline.afterTail₀
  show StableHlo.after hostOps1 _ (Proc.devRef .tc main_v12) = _
  after_results
  exact Pipeline.withArrays_of_ne _ c (V0 m c) _ main_v12 (by decide)

end Cert.KernelIdeal.HostSide

end
-- ==== Proof.KernelValue.lean ====
/-
  The scaling kernel's program, run: its two results as functions of its three inputs.

  The first result is the kernel's output rows folded back into `[8, 4096, 1024]`.  Those rows are the flattened input
  scaled column by column by the weight row, so by the one rearrangement law the fold is the input scaled channel by
  channel by the weights.  The second result is the weights.  The inputs end unchanged.
-/
import proofs.«102233_j47983374630951_2_alg».proof.Proof.KernelBlocks
import proofs.«102233_j47983374630951_2_alg».proof.Proof.KernelHost

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Cert.ChannelScale (byChannel weights fold_byColumn)

variable (m : (ℓ : Loc nD τ sig) → Buf (Elt Ideal) ℓ) (ρ : Dev nD → PrngReg)

/-- The first result is the input array scaled channel by channel by the weights. -/
theorem result_value (c : Dev nD) :
    Pipeline.afterTail₀ cfgs (dats m) 0 (V0 m) [hostOps1] c main_v16
      = byChannel (m ((c : Thread nD τ).loc main_arg0))
          (weights (m ((c : Thread nD τ).loc main_arg1)) (m ((c : Thread nD τ).loc main_arg2))) := by
  refine (HostSide.result_after_tail m c).trans ?_
  rw [Blocks.final m c, HostSide.rows_at_entry m c, HostSide.weightRow_at_entry m c]
  exact fold_byColumn _ _ _ _ _

/-- The second result is the weights. -/
theorem weights_value (c : Dev nD) :
    Pipeline.afterTail₀ cfgs (dats m) 0 (V0 m) [hostOps1] c main_v12
      = weights (m ((c : Thread nD τ).loc main_arg1)) (m ((c : Thread nD τ).loc main_arg2)) :=
  (HostSide.weights_after_tail m c).trans (HostSide.weights_at_entry m c)

/-- Every weakly fair execution of the program terminates with the first result at the input scaled channel by channel
    by the weights, the second at the weights, and the three inputs as they were. -/
theorem run : θ_run defs (onTc (τ := τ) (main (F := Ideal))) ⟨m, fun _ => 0, ρ⟩ (fun r => ∀ c : Dev nD,
      r.2.mem ((c.tc : Thread nD τ).loc main_v16)
        = byChannel (m ((c.tc : Thread nD τ).loc main_arg0))
            (weights (m ((c.tc : Thread nD τ).loc main_arg1)) (m ((c.tc : Thread nD τ).loc main_arg2)))
      ∧ r.2.mem ((c.tc : Thread nD τ).loc main_v12)
        = weights (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (result_value m c),
      ((h c).2 main_v12 (Pipeline.mem_restRefs_of main_v12 (by decide) (by decide))).trans (weights_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.ReferenceValue.lean ====
/-
  The reference's result, read entry by entry.

  The reference computes the weights by the same host operations, repeats them along the two leading axes
  (first as `[1, 1, 1024]`, then as `[8, 4096, 1024]`) and multiplies the array by the repeated weights entry by entry.
  At entry `(b, s, d)` the repeated weights hold the weight of channel `d`, so the result is the array scaled channel by
  channel.
-/
import proofs.«102233_j47983374630951_2_alg».proof.Proof.Weights
import Idealize.ShloMosaic.Lib.ValueIdx

noncomputable section

namespace Cert.ReferenceIdeal.RefValue

open Cert.ReferenceIdeal Cert.ReferenceIdeal.Read Idealize.ShloMosaic Idealize.ShloMosaic.ValueIdx
open Cert.ChannelScale (byChannel byChannel_apply weights)

/-- The two repetitions read, at entry `(b, s, d)`, the weights at channel `d`. -/
theorem channel_of_entry (b : Fin 8) (s : Fin 4096) (d : Fin 1024) :
    idx_main_v13 (idx_main_v14 (ix3 b s d)) = ix1 d :=
  funext fun a => Fin.ext (by match a with | ⟨0, _⟩ => rfl)

/-- The reference's first result is the array scaled channel by channel by the weights. -/
theorem result_eq (x : S8x4096x1024.Idx → EReal) (p q : S1024.Idx → EReal) :
    val_main_v15 (F := Ideal) x p q = byChannel x (weights p q) := by
  funext i
  obtain ⟨b, s, d, rfl⟩ : ∃ (b : Fin 8) (s : Fin 4096) (d : Fin 1024), i = ix3 b s d := ⟨i 0, i 1, i 2, eq_ix3 i⟩
  rw [val_main_v15_apply, val_main_v14_apply, val_main_v13_apply, channel_of_entry, byChannel_apply]
  rfl

end Cert.ReferenceIdeal.RefValue

end
-- ==== Proof.lean ====
/-
  A per-channel scaling: the kernel against its reference, over the extended reals.

  Both programs take an array `x : [8, 4096, 1024]` and two vectors `p, q : [1024]`, compute on the host the weights
  `w = 1024 · softmax p · q` by the same chain of operations, and return `x` scaled by `w` along the last axis together with
  `w` itself.  The reference multiplies `x` by `w` repeated along the two leading axes.  The kernel flattens `x` into 32768
  rows, lays `w` out as one row, multiplies sixteen blocks of 2048 rows by that row, and folds the rows back.  Entry
  `(b, s, d)` of `x` is entry `d` of row `b · 4096 + s`, so both read `x[b, s, d]` and `w[d]` and multiply them in the same
  order: the results are equal entry by entry, whatever the inputs hold — no law of arithmetic is needed, hence no
  finiteness either.  The weights are carried as one function of `p` and `q` and never opened.

  The three programs' runs (termination, no fault, inputs unchanged) are the generated frames; the idealized kernel is
  the kernel's own text read over the extended reals, so there is nothing to preserve.
-/
import proofs.«102233_j47983374630951_2_alg».proof.Defs
import proofs.«102233_j47983374630951_2_alg».proof.Proof.Gen.Kernel
import proofs.«102233_j47983374630951_2_alg».proof.Proof.Gen.Kernel.Skeleton
import proofs.«102233_j47983374630951_2_alg».proof.Proof.Gen.Kernel.Launch
import proofs.«102233_j47983374630951_2_alg».proof.Proof.Gen.Kernel.Points
import proofs.«102233_j47983374630951_2_alg».proof.Proof.Gen.Kernel.Frame
import proofs.«102233_j47983374630951_2_alg».proof.Proof.Gen.KernelIdeal
import proofs.«102233_j47983374630951_2_alg».proof.Proof.Gen.KernelIdeal.Skeleton
import proofs.«102233_j47983374630951_2_alg».proof.Proof.Gen.KernelIdeal.Launch
import proofs.«102233_j47983374630951_2_alg».proof.Proof.Gen.KernelIdeal.Points
import proofs.«102233_j47983374630951_2_alg».proof.Proof.Gen.KernelIdeal.Frame
import proofs.«102233_j47983374630951_2_alg».proof.Proof.Gen.ReferenceIdeal
import proofs.«102233_j47983374630951_2_alg».proof.Proof.Gen.Pre_finite_inputs
import proofs.«102233_j47983374630951_2_alg».proof.Proof.Gen.ReferenceIdeal.Run
import proofs.«102233_j47983374630951_2_alg».proof.Proof.Gen.ReferenceIdeal.Read
import proofs.«102233_j47983374630951_2_alg».proof.Proof.KernelValue
import proofs.«102233_j47983374630951_2_alg».proof.Proof.ReferenceValue
import Idealize.ShloMosaic.Adequacy
import Idealize.ShloMosaic.Init

noncomputable section

namespace Cert.Proof

open Idealize.ShloMosaic Idealize.ShloMosaic.TcCoe Idealize.SL.Sem
open Cert.ChannelScale (byChannel weights)

/-- The kernel's program as printed runs and leaves its inputs unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its inputs unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From inputs that agree, both programs end with the array scaled channel by channel by the weights, and with the
    weights. -/
theorem algebraic : Cert.algebraic_KernelIdeal_ReferenceIdeal := by
  intro m ρ m' ρ' _ hagree
  refine ⟨fun c => byChannel (m ((c.tc : Thread Cert.KernelIdeal.nD Cert.KernelIdeal.τ).loc Cert.KernelIdeal.main_arg0))
        (weights (m ((c.tc : Thread Cert.KernelIdeal.nD Cert.KernelIdeal.τ).loc Cert.KernelIdeal.main_arg1))
          (m ((c.tc : Thread Cert.KernelIdeal.nD Cert.KernelIdeal.τ).loc Cert.KernelIdeal.main_arg2))),
    fun c => weights (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.ReferenceIdeal.RefValue.result_eq,
      (hagree c).1, (hagree c).2.1, (hagree c).2.2]
  · rw [(h c).2.1, Cert.ReferenceIdeal.Read.val_main_v12_eq, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
